-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S16384x128 : Shape := ⟨2, ![16384, 128]⟩

abbrev nBuf : Space → Nat
  | .hbm => 4
  | .vmem => 4
  | .smem => 0
  | _ => 0

abbrev bufTy : (tb : Table) → Fin (tcTables nBuf tb) → BufTy
  | .hbm, ⟨0, _⟩ => ⟨S67108864, .f32⟩
  | .hbm, ⟨1, _⟩ => ⟨S524288x128, .f32⟩
  | .hbm, ⟨2, _⟩ => ⟨S524288x128, .f32⟩
  | .hbm, ⟨3, _⟩ => ⟨S67108864, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S67108864_S524288x128 : S67108864.ShapeCasts S524288x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S524288x128_S67108864 : S524288x128.ShapeCasts S67108864
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S524288x128.size a
  hwx0_1 : ∀ i : grid0.Coords, EltTy.bits .f32 = 32 ∨ (Rect.block (s := S524288x128) S16384x128.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S67108864 : Shape := ⟨1, ![67108864]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S_, .f32⟩
  | .hbm, ⟨2, _⟩ => ⟨S67108864, .f32⟩
  | .hbm, ⟨3, _⟩ => ⟨S67108864, .i1⟩
  | .hbm, ⟨4, _⟩ => ⟨S67108864, .f32⟩
  | .hbm, ⟨5, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)

variable [Facts₀]

class Facts : Prop extends Facts₀ where

variable [Facts]
-- ==== Proof.SquareWherePositive.lean ====
/-
  The function both programs compute, one element at a time: `x ↦ x²` where `x > 0`, and `x` itself elsewhere
  (at zero, at the negatives and, over the extended reals, at `-∞`; `+∞` is positive and is sent to `+∞ · +∞`).
  Nothing here depends on the meaning of the comparison or of the product: the two programs apply the SAME comparison
  with the same zero word, the same product and the same selection, so the statements hold for any reading of the floats.

  A change of shape only renames positions (row-major order is kept), so it commutes with any map applied element by
  element; changing to another shape, mapping, and changing back is therefore the map itself.
-/
import Idealize.ShloMosaic.PureOps.Ideal
import Idealize.ShloMosaic.Lib.Pipeline.Value

noncomputable section

namespace Cert.SquareWherePositive

open Idealize.ShloMosaic

variable {F : FTy → Type} [FloatOps F]

/-- One element: its square where it is greater than zero, itself elsewhere. -/
def sqPos (x : F .f32) : F .f32 :=
  Scalar.select (FloatOps.cmpf .ogt x (FloatOps.ofBits .f32 0x00000000#32)) (FloatOps.mulf x x) x

/-- The same at every position of an array of any shape. -/
def sqPosMap {s : Shape} (x : s.Idx → F .f32) : s.Idx → F .f32 := fun i => sqPos (x i)

theorem sqPosMap_apply {s : Shape} (x : s.Idx → F .f32) (i : s.Idx) : sqPosMap x i = sqPos (x i) := rfl

/-- Renaming positions and then mapping is mapping and then renaming positions. -/
theorem shapeCast_sqPosMap {s t : Shape} (x : s.Idx → F .f32) (h : s.ShapeCasts t) :
    shapeCast t (sqPosMap x) h = sqPosMap (shapeCast t x h) := rfl

/-- To another shape, the map there, and back: the map. -/
theorem shapeCast_sqPosMap_shapeCast {s t : Shape} (x : s.Idx → F .f32) (h : s.ShapeCasts t) (h' : t.ShapeCasts s) :
    shapeCast s (sqPosMap (shapeCast t x h)) h' = sqPosMap x := by
  rw [shapeCast_sqPosMap, shapeCast_shapeCast]

end Cert.SquareWherePositive

end
-- ==== Proof.ReferenceValue.lean ====
/-
  The reference's result, read one position at a time: position `i` of the result is the selection, by the comparison
  of `x i` with the broadcast zero, between the product `x i · x i` and `x i` — the element function of
  `SquareWherePositive` at `x i`.
-/
import proofs.«108692_j87454124082093_2_alg».proof.Proof.Gen.ReferenceIdeal.Read
import proofs.«108692_j87454124082093_2_alg».proof.Proof.SquareWherePositive

noncomputable section

namespace Cert.ReferenceIdeal.RefValue

open Cert.ReferenceIdeal Cert.ReferenceIdeal.Gen Cert.ReferenceIdeal.Read Idealize.ShloMosaic Cert.SquareWherePositive

variable {F : FTy → Type} [FloatOps F]

/-- The reference's last stage is the element function at every position of the flat array. -/
theorem result_eq (x : (⟨S67108864, .f32⟩ : BufTy).Contents (Elt F)) :
    val_main_v3 (F := F) x = sqPosMap (s := S67108864) x := by
  funext i
  rw [val_main_v3_apply, val_main_v1_apply, val_main_v2_apply, val_main_v0_apply, val_main_cst_apply]
  rfl

end Cert.ReferenceIdeal.RefValue

end
-- ==== Proof.BlockValue.lean ====
/-
  The kernel's array after the grid has run. The 524288 × 128 array is cut into 32 blocks of 16384 whole rows; grid
  point `t` loads block `t` of the input, applies the element function at each of its positions and writes the result
  back as block `t` of the output. Input and output blocks sit at the same rows (both index maps are `t ↦ (t, 0)`), so
  what point `t` writes back is block `t` of the element function applied to the whole input array. Row `r` lies in block
  `r / 16384`, so the blocks cover the array and the output array ends as the element function of the input array at
  every position.
-/
import proofs.«108692_j87454124082093_2_alg».proof.Proof.Gen.KernelIdeal.Frame
import proofs.«108692_j87454124082093_2_alg».proof.Proof.SquareWherePositive
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Cert.SquareWherePositive

variable {F : FTy → Type} [FloatOps F]
variable (m : (ℓ : Loc nD τ sig) → Buf (Elt F) ℓ) (ρ : Dev nD → PrngReg)

theorem origin_eq : (![0, 0] : Fin 2 → Nat) = fun _ => 0 := funext fun a => by fin_cases a <;> rfl

/-- The body's arithmetic on a loaded block is the element function at each position of the block (the change of
    shape in front of it is to the same shape). -/
theorem body_eq (x0 : Vec F S16384x128 .f32) : k0_pay1 x0 = sqPosMap (s := S16384x128) x0 := by
  unfold k0_pay1
  rw [shapeCast_self]
  rfl

/-- Both windows' block at grid point `t` is block `(t, 0)`. -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- Every block of rows is some grid point's. -/
theorem block_onto : ∀ q : Fin 32, ∃ t : Fin cfg0.N, win0_1.index t = ![q.val, 0] :=
  (by decide +kernel : ∀ q : Fin 32, ∃ t : Fin grid0.N, win0_1.index t = ![q.val, 0])

/-- What grid point `t` writes back is block `t` of the element function of the whole input array. -/
theorem written_back (c : Dev nD) (t : Fin cfg0.N) :
    (dats m 0 c).flushed 1 t = ((cfg0.win 1).blk t).view.read (Elt F) (sqPosMap (s := S524288x128) (V m c main_v0)) := by
  show (cfg0.win 1).cut (grid0.coords t) ((dats m 0 c).after 1 t) = _
  rw [after0_1]
  unfold out0_1
  rw [View.canon_unit_zero origin_eq]
  simp only [View.ld_unit_zero (S := S16384x128) origin_eq]
  rw [body_eq]
  obtain ⟨e0, e1, e2, e3⟩ := block_index t
  funext j
  show sqPos (V m c main_v0 (((cfg0.win 0).blk t).view.emb j)) = sqPos (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * (j 1).val = win0_1.index t (1 : Fin 2) * 128 + 1 * (j 1).val; omega
  rw [h0]

/-- A position of the array is in point `t`'s block iff each coordinate is in the block's range on its axis. -/
theorem mem_block (t : Fin cfg0.N) (i : S524288x128.Idx) :
    i ∈ ((cfg0.win 1).blk t).view.set ↔ ∀ a : Fin 2, win0_1.index t a * S16384x128.size a ≤ (i a).val ∧ (i a).val < win0_1.index t a * S16384x128.size a + S16384x128.size a := by
  show i ∈ ((View.whole main_v1).slice (win0_1.rect t)).set ↔ _
  rw [View.set_slice_whole, Rect.mem_set_unit]
  exact Iff.rfl

/-- Row `r` is in the block of rows `r / 16384`: the written-back blocks cover the array. -/
theorem blocks_cover (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  obtain ⟨t, ht⟩ := block_onto ⟨(i 0).val / 16384, by omega⟩
  have q0 : win0_1.index t (0 : Fin 2) = (i 0).val / 16384 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 128 ≤ (i 1).val ∧ (i 1).val < win0_1.index t (1 : Fin 2) * 128 + 128; omega

/-- The output array after the grid: the element function of the input array, at every position. -/
theorem output_array (c : Dev nD) :
    (dats m 0 c).arrAt 1 cfg0.N = sqPosMap (s := S524288x128) (V m c main_v0) :=
  (dats m 0 c).arrAt_eq_of_cover 1 _ (fun t _ => written_back m c t) blocks_cover

end Cert.KernelIdeal.BlockValue

end
-- ==== Proof.KernelValue.lean ====
/-
  The kernel's result as a function of its argument. Before the grid the flat argument of 67108864 elements is viewed as
  524288 rows of 128 (row-major positions kept); the grid leaves the element function of that view in the output array
  (`BlockValue`); after the grid the output array is viewed flat again. A change of shape commutes with a map applied
  element by element, and there and back is the identity, so the flat result is the element function of the flat argument
  at every position.
-/
import proofs.«108692_j87454124082093_2_alg».proof.Proof.BlockValue
import Idealize.ShloMosaic.Lib.StableHlo.Run

noncomputable section

namespace Cert.KernelIdeal.KernelValue

open Cert.KernelIdeal Cert.KernelIdeal.Gen Cert.KernelIdeal.BlockValue
open Idealize.ShloMosaic Idealize.ShloMosaic.TcCoe Idealize.SL.Sem Idealize.ShloMosaic.StableHlo
open Cert.SquareWherePositive

variable {F : FTy → Type} [FloatOps F]
variable (m : (ℓ : Loc nD τ sig) → Buf (Elt F) ℓ) (ρ : Dev nD → PrngReg)

/-- The array the grid reads is the argument viewed as rows of 128. -/
theorem input_array (c : Dev nD) :
    (V m c main_v0 : S524288x128.Idx → Elt F .f32)
      = shapeCast S524288x128 (m ((c : Thread nD τ).loc main_arg0)) shapeCasts_S67108864_S524288x128 := by
  show StableHlo.after hostOps0 (fun b => m (c, b)) (Proc.devRef .tc main_v0) = _
  after_results
  rfl

/-- The result is the grid's output array viewed flat. -/
theorem result_array (c : Dev nD) :
    (Pipeline.afterTail₀ cfgs (dats m) 0 (V0 m) [hostOps1] c main_v2 : S67108864.Idx → Elt F .f32)
      = shapeCast S67108864 ((dats m 0 c).arrAt 1 cfg0.N) shapeCasts_S524288x128_S67108864 := by
  unfold Pipeline.afterTail₀
  show StableHlo.after hostOps1 _ (Proc.devRef .tc main_v2) = _
  after_results
  rw [Pipeline.withArrays_arr spec0 launch0.win.arr_inj c _ _ 1]
  rfl

/-- The result is the element function of the argument, at every position. -/
theorem result_eq (c : Dev nD) :
    (Pipeline.afterTail₀ cfgs (dats m) 0 (V0 m) [hostOps1] c main_v2 : S67108864.Idx → Elt F .f32)
      = sqPosMap (s := S67108864) (m ((c : Thread nD τ).loc main_arg0)) := by
  rw [result_array, output_array, input_array]
  exact shapeCast_sqPosMap_shapeCast (s := S67108864) (t := S524288x128) _ _ _

/-- Every weakly fair execution of the kernel's program terminates with the result at the element function of the
    argument and the argument unchanged. -/
theorem run : θ_run defs (onTc (τ := τ) (main (F := F))) ⟨m, fun _ => 0, ρ⟩ fun r => ∀ c : Dev nD,
      r.2.mem ((c : Thread nD τ).loc main_v2) = sqPosMap (s := S67108864) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.lean ====
/-
  The kernel and its reference compute one function of a flat array `x` of 67108864 floats: at every position, `x²`
  where `x > 0` and `x` elsewhere.

  The reference does so in one pass over the flat array: it compares `x` with a broadcast zero, forms `x · x`, and
  selects between the product and `x`.

  The kernel views `x` as 524288 rows of 128, cuts the rows into 32 blocks of 16384, and at each grid point loads one
  block, applies the same comparison with the same zero word, the same product and the same selection to every element
  of the block, and writes the block back at the same rows; it then views the 524288 × 128 result flat again. Each
  element of the result depends on the one element of `x` at the same row-major position, the blocks cover every row,
  and viewing an array under another shape keeps row-major positions, so the flat result is the element function of `x`
  at every position (`Proof/BlockValue.lean`, `Proof/KernelValue.lean`); so is the reference's
  (`Proof/ReferenceValue.lean`). No law of arithmetic is used — the two sides apply identical operations to identical
  operands — so the statement holds at every extended real, the infinities included, and the finiteness of the inputs is
  never called on.

  Read over the extended reals the kernel's text is unchanged, operation for operation, so nothing is owed for that
  reading beyond the equality of the results; that each program runs to the end with its argument left unchanged is the
  generated run of each.
-/
import proofs.«108692_j87454124082093_2_alg».proof.Defs
import proofs.«108692_j87454124082093_2_alg».proof.Proof.Gen.Kernel
import proofs.«108692_j87454124082093_2_alg».proof.Proof.Gen.Kernel.Skeleton
import proofs.«108692_j87454124082093_2_alg».proof.Proof.Gen.Kernel.Launch
import proofs.«108692_j87454124082093_2_alg».proof.Proof.Gen.Kernel.Points
import proofs.«108692_j87454124082093_2_alg».proof.Proof.Gen.Kernel.Frame
import proofs.«108692_j87454124082093_2_alg».proof.Proof.Gen.KernelIdeal
import proofs.«108692_j87454124082093_2_alg».proof.Proof.Gen.KernelIdeal.Skeleton
import proofs.«108692_j87454124082093_2_alg».proof.Proof.Gen.KernelIdeal.Launch
import proofs.«108692_j87454124082093_2_alg».proof.Proof.Gen.KernelIdeal.Points
import proofs.«108692_j87454124082093_2_alg».proof.Proof.Gen.KernelIdeal.Frame
import proofs.«108692_j87454124082093_2_alg».proof.Proof.Gen.ReferenceIdeal
import proofs.«108692_j87454124082093_2_alg».proof.Proof.Gen.ReferenceIdeal.Run
import proofs.«108692_j87454124082093_2_alg».proof.Proof.Gen.ReferenceIdeal.Read
import proofs.«108692_j87454124082093_2_alg».proof.Proof.Gen.Pre_finite_inputs
import proofs.«108692_j87454124082093_2_alg».proof.Proof.SquareWherePositive
import proofs.«108692_j87454124082093_2_alg».proof.Proof.ReferenceValue
import proofs.«108692_j87454124082093_2_alg».proof.Proof.BlockValue
import proofs.«108692_j87454124082093_2_alg».proof.Proof.KernelValue
import Idealize.ShloMosaic.Adequacy
import Idealize.ShloMosaic.Init

noncomputable section

namespace Cert.Proof

open Idealize.ShloMosaic Idealize.ShloMosaic.TcCoe Idealize.SL.Sem
open Cert.SquareWherePositive

/-- The kernel as printed runs to the end and leaves its argument as it found it. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on the argument, both programs end with the element function of the argument as their
    result, the argument unchanged. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
